-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S_ : Shape := ⟨0, ![]⟩
abbrev S1x4096 : Shape := ⟨2, ![1, 4096]⟩
abbrev S256x4096 : Shape := ⟨2, ![256, 4096]⟩
abbrev S4096x1024 : Shape := ⟨2, ![4096, 1024]⟩
abbrev S1x1024 : Shape := ⟨2, ![1, 1024]⟩
abbrev S256x1024 : Shape := ⟨2, ![256, 1024]⟩

abbrev nBuf : Space → Nat
  | .hbm => 17
  | .vmem => 8
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .i1⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S1x4096, .f32⟩
  | .hbm, ⟨15, _⟩ => ⟨S16384x4096, .f32⟩
  | .hbm, ⟨16, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x2048x4096_S16384x4096 : S8x2048x4096.ShapeCasts S16384x4096
  transposes_S4096x4096_S4096x4096_1_0 : S4096x4096.Transposes [1, 0] S4096x4096
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S16384x4096_S8x2048x4096 : S16384x4096.ShapeCasts S8x2048x4096
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S16384x4096.size a
  hwx0_3 : ∀ i : grid0.Coords, EltTy.bits .f32 = 32 ∨ (Rect.block (s := S16384x4096) S256x1024.size (cc0_transform_3 i) (hinb0_3 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S8x2048x4096, .f32⟩
  | .hbm, ⟨15, _⟩ => ⟨S1x1x4096, .f32⟩
  | .hbm, ⟨16, _⟩ => ⟨S8x2048x4096, .f32⟩
  | .hbm, ⟨17, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.BlockProduct.lean ====
/-
  One block of the product.

  The body takes a 256 × 4096 block of rows of the activations, a 4096 × 1024 block of the binarized, transposed
  weights and a 1 × 1024 block of the bias; it multiplies the first two into a zero accumulator and adds the bias
  block down the rows.  At (p, q) of the 256 × 1024 result that is
      Σ_k rows[p, k] · weights[k, q]  +  bias[0, q]:
  the change of float format on the rows is the identity on the extended reals, the accumulator is zero, and the
  product has one contracted axis, whose index is k.
-/
import proofs.«150569_j81063212745415_2_alg».proof.Proof.Gen.KernelIdeal.Skeleton
import proofs.«150569_j81063212745415_2_alg».proof.Proof.LibMatmul
import Idealize.ShloMosaic.Lib.Pipeline.Value
import Idealize.ShloMosaic.Lib.ValueIdx

noncomputable section

namespace Cert.BinLinear.Kernel

open Cert.KernelIdeal Cert.KernelIdeal.Gen Idealize.ShloMosaic Idealize.ShloMosaic.ValueIdx

/-- The block product's dimensions: rows by the contracted axis, the contracted axis by columns. -/
abbrev blockDims : DotDims S256x4096 S4096x1024 S256x1024 := dot_S256x4096_S4096x1024_S256x1024_1_0_0_1_n_n

/-- The left operand is read at (row of the result, contraction index). -/
theorem blockDims_l0 (i : S256x1024.Idx) (q : blockDims.contr.Idx) :
    (blockDims.lhsIdx i q (0 : Fin 2)).val = (i (0 : Fin 2)).val := by
  unfold DotDims.lhsIdx
  rw [dif_neg (show ¬(0 : Fin S256x4096.rank) ∈ blockDims.lhsBatch by decide),
    dif_pos (show (0 : Fin S256x4096.rank) ∈ blockDims.lhsNonContracting by decide)]
  rfl
theorem blockDims_l1 (i : S256x1024.Idx) (q : blockDims.contr.Idx) :
    (blockDims.lhsIdx i q (1 : Fin 2)).val = (q ⟨0, by decide⟩).val :=
  blockDims.lhsIdx_val_of_single rfl i q
/-- The right operand is read at (contraction index, column of the result). -/
theorem blockDims_r0 (i : S256x1024.Idx) (q : blockDims.contr.Idx) :
    (blockDims.rhsIdx i q (0 : Fin 2)).val = (q ⟨0, by decide⟩).val :=
  blockDims.rhsIdx_val_of_single rfl i q
theorem blockDims_r1 (i : S256x1024.Idx) (q : blockDims.contr.Idx) :
    (blockDims.rhsIdx i q (1 : Fin 2)).val = (i (1 : Fin 2)).val := by
  unfold DotDims.rhsIdx
  rw [dif_neg (show ¬(1 : Fin S4096x1024.rank) ∈ blockDims.rhsBatch by decide),
    dif_pos (show (1 : Fin S4096x1024.rank) ∈ blockDims.rhsNonContracting by decide)]
  rfl

/-- The bias block broadcast down the 256 rows, read at (p, q), is the block's one row at q. -/
theorem bias_rows_at (x2 : FVec Ideal S1x1024 .f32) (p : Fin 256) (q : Fin 1024) :
    broadcastTo S256x1024 x2 broadcasts_S1x1024_S256x1024 (ix2 p q) = x2 (ix2 (0 : Fin 1) q) :=
  broadcastTo_apply x2 broadcasts_S1x1024_S256x1024 (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-- What the body stores, at (p, q): the sum over k of rows[p, k] · weights[k, q], plus bias[0, q]. -/
theorem block_at (x0 : FVec Ideal S256x4096 .f32) (x1 : FVec Ideal S4096x1024 .bf16) (x2 : FVec Ideal S1x1024 .f32)
    (p : Fin 256) (q : Fin 1024) :
    k0_pay1 (F := Ideal) x0 x1 x2 (ix2 p q)
      = (∑ k : Fin 4096, x0 (ix2 p k) * x1 (ix2 k q)) + x2 (ix2 (0 : Fin 1) q) := by
  unfold k0_pay1
  show FloatOps.matmul blockDims none
        (truncf .bf16 (shapeCast S256x4096 x0 shapeCasts_S256x4096_S256x4096) bitsLt_bf16_f32)
        (shapeCast S4096x1024 x1 shapeCasts_S4096x1024_S4096x1024)
        (constant (F := Ideal) S256x1024 .f32 0x00000000#32) (ix2 p q)
      + broadcastTo S256x1024 (shapeCast S1x1024 x2 shapeCasts_S1x1024_S1x1024) broadcasts_S1x1024_S256x1024 (ix2 p q) = _
  rw [shapeCast_self, shapeCast_self, shapeCast_self, bias_rows_at,
    Cert.LibMatmul.matmul_zero_ix2 blockDims rfl rfl blockDims_l0 blockDims_l1 blockDims_r0 blockDims_r1]
  rfl

end Cert.BinLinear.Kernel

end
-- ==== Proof.Spec.lean ====
/-
  The binarized linear layer as one function of its three arguments, and the one law of the extended reals that
  the two programs' spellings of it differ by.

  Write sgn w for +1 where w ≥ 0 and −1 elsewhere.  The layer's result at (b, s, o) is
      Σ_k x[b, s, k] · sgn (weight[o, k])  +  bias[o].
  One program multiplies by sgn w directly; the other multiplies by w + (sgn w − w), the straight-through form.
  On the extended reals w + (s − w) = s holds whenever w is a real number, whatever s is (for s = ±∞ both sides are
  that infinity); at w = ±∞ it fails, which is where the finiteness of the weights is used.
-/
import Idealize.ShloMosaic.PureOps.Ideal
import Idealize.ShloMosaic.PureOps.Ideal.Laws
import Idealize.ShloMosaic.Lib.ValueIdx

noncomputable section

namespace Cert.BinLinear

open Idealize.ShloMosaic Idealize.ShloMosaic.ValueIdx

/-- The shapes of the layer: the activations [8, 2048, 4096], the weights [4096 out, 4096 in], the bias [4096]. -/
abbrev SX : Shape := ⟨3, ![8, 2048, 4096]⟩
abbrev SW : Shape := ⟨2, ![4096, 4096]⟩
abbrev SB : Shape := ⟨1, ![4096]⟩

/-- The binarized weight: the word 1.0 where `w ≥ 0`, the word −1.0 elsewhere.  The three float words are kept as
    words: both programs carry the same ones, so their values are never needed. -/
def sgn (w : EReal) : EReal :=
  Scalar.select (Ideal.cmp .oge w (Ideal.ofBits .f32 0x00000000#32))
    (Ideal.ofBits .f32 0x3F800000#32) (Ideal.ofBits .f32 0xBF800000#32)

/-- The layer at the entry with coordinates (p, s, o): the sum over the input features k of x[p, s, k] · sgn (weight[o, k]),
    plus bias[o]. -/
def layerAt (x : FVec Ideal SX .f32) (w : FVec Ideal SW .f32) (b : FVec Ideal SB .f32)
    (p : Fin 8) (s : Fin 2048) (o : Fin 4096) : EReal :=
  (∑ k : Fin 4096, x (ix3 p s k) * sgn (w (ix2 o k))) + b (ix1 o)

/-- The layer as an array. -/
def layer (x : FVec Ideal SX .f32) (w : FVec Ideal SW .f32) (b : FVec Ideal SB .f32) : FVec Ideal SX .f32 :=
  fun i => layerAt x w b (i 0) (i 1) (i 2)

theorem layer_ix3 (x : FVec Ideal SX .f32) (w : FVec Ideal SW .f32) (b : FVec Ideal SB .f32)
    (p : Fin 8) (s : Fin 2048) (o : Fin 4096) : layer x w b (ix3 p s o) = layerAt x w b p s o := rfl

/-- Adding back what was subtracted: for a REAL `a` and any extended real `s`, `a + (s − a) = s`. -/
theorem add_sub_cancel_real (a : ℝ) (s : EReal) : (a : EReal) + (s - (a : EReal)) = s := by
  induction s using EReal.rec with
  | bot => simp
  | top => simp
  | coe r => norm_cast; ring

/-- The straight-through spelling of the binarized weight is the binarized weight, at a real weight. -/
theorem straight_through (w : EReal) (hw : ∃ r : ℝ, w = (r : EReal)) : w + (sgn w - w) = sgn w := by
  obtain ⟨r, rfl⟩ := hw
  exact add_sub_cancel_real r _

end Cert.BinLinear

end
-- ==== Proof.Rows.lean ====
/-
  The layer computed on rows.

  Flatten the activations [8, 2048, 4096] to 16384 rows (row p · 2048 + s is x[p, s, ·]), transpose and binarize the
  weights to Wt[k, o] = sgn (weight[o, k]), and read the bias as one row.  The product on rows,
      R[r, o] = Σ_k X[r, k] · Wt[k, o] + B[0, o],
  read back as [8, 2048, 4096], is the layer: entry (p, s, o) is row p · 2048 + s at column o, and a reshape keeps the
  row-major position of every entry.
-/
import Idealize.ShloMosaic.Lib.Pipeline.Value
import Idealize.ShloMosaic.Lib.ValueIdx
import proofs.«150569_j81063212745415_2_alg».proof.Proof.Spec

noncomputable section

namespace Cert.BinLinear

open Idealize.ShloMosaic Idealize.ShloMosaic.ValueIdx

/-- 16384 rows of 4096; the bias as one row; a scalar. -/
abbrev SR : Shape := ⟨2, ![16384, 4096]⟩
abbrev SB1 : Shape := ⟨2, ![1, 4096]⟩
abbrev S0 : Shape := ⟨0, ![]⟩

/-- The product on rows at (r, o). -/
def rowsProductAt (X : FVec Ideal SR .f32) (Wt : FVec Ideal SW .bf16) (B1 : FVec Ideal SB1 .f32)
    (r : Fin 16384) (o : Fin 4096) : EReal :=
  (∑ k : Fin 4096, X (ix2 r k) * Wt (ix2 k o)) + B1 (ix2 (0 : Fin 1) o)

/-- The product on rows as an array. -/
def rowsProduct (X : FVec Ideal SR .f32) (Wt : FVec Ideal SW .bf16) (B1 : FVec Ideal SB1 .f32) : FVec Ideal SR .f32 :=
  fun j => rowsProductAt X Wt B1 (j 0) (j 1)

theorem rowsProduct_ix2 (X : FVec Ideal SR .f32) (Wt : FVec Ideal SW .bf16) (B1 : FVec Ideal SB1 .f32)
    (r : Fin 16384) (o : Fin 4096) : rowsProduct X Wt B1 (ix2 r o) = rowsProductAt X Wt B1 r o := rfl

/-- The row that holds x[p, s, ·]. -/
def rowOf (p : Fin 8) (s : Fin 2048) : Fin 16384 := ⟨p.val * 2048 + s.val, by have := p.isLt; have := s.isLt; omega⟩

/-- The flattened activations at (row of (p, s), k) are x[p, s, k]. -/
theorem rows_at (x : FVec Ideal SX .f32) (h : SX.ShapeCasts SR) (p : Fin 8) (s : Fin 2048) (k : Fin 4096) :
    shapeCast SR x h (ix2 (rowOf p s) k) = x (ix3 p s k) :=
  shapeCast_apply x h (ix2 (rowOf p s) k) (ix3 p s k) (by
    rw [Shape.rowMajor_val_three, Shape.rowMajor_val_two]
    show (p.val * 2048 + s.val) * 4096 + k.val = (p.val * 2048 + s.val) * 4096 + k.val
    rfl)

/-- A row array read back as [8, 2048, 4096], at (p, s, o), is the row of (p, s) at column o. -/
theorem unrows_at (y : FVec Ideal SR .f32) (h : SR.ShapeCasts SX) (p : Fin 8) (s : Fin 2048) (o : Fin 4096) :
    shapeCast SX y h (ix3 p s o) = y (ix2 (rowOf p s) o) :=
  shapeCast_apply y h (ix3 p s o) (ix2 (rowOf p s) o) (by
    rw [Shape.rowMajor_val_three, Shape.rowMajor_val_two]
    show (p.val * 2048 + s.val) * 4096 + o.val = (p.val * 2048 + s.val) * 4096 + o.val
    rfl)

/-- The bias read as one row, at (0, o), is bias[o]. -/
theorem biasRow_at (b : FVec Ideal SB .f32) (h : SB.ShapeCasts SB1) (o : Fin 4096) :
    shapeCast SB1 b h (ix2 (0 : Fin 1) o) = b (ix1 o) :=
  shapeCast_apply b h (ix2 (0 : Fin 1) o) (ix1 o) (by
    rw [Shape.rowMajor_val_one, Shape.rowMajor_val_two]
    show o.val = 0 * 4096 + o.val
    omega)

/-- A scalar broadcast to the weights' shape, read anywhere, is the scalar. -/
theorem scalar_at (hb : S0.BroadcastsInDim SW (![] : Fin 0 → Fin SW.rank)) (y : S0.Idx → EReal) (j : SW.Idx) :
    broadcastInDim SW ![] hb y j = y ix0 :=
  broadcastInDim_apply _ hb y j ix0 (fun a => a.elim0)

/-- The transposed, binarized weights at (k, o) are sgn (weight[o, k]): the transpose swaps the coordinates, the
    comparison, the selection and the change of float format act entry by entry, and the three broadcast constants
    are their scalars. -/
theorem binarized_at (w : FVec Ideal SW .f32) (ht : SW.Transposes [1, 0] SW)
    (hb : S0.BroadcastsInDim SW (![] : Fin 0 → Fin SW.rank)) (hlt : FTy.bits .bf16 < FTy.bits .f32) (k o : Fin 4096) :
    truncf .bf16 (select
        (cmpf .oge (transpose SW [1, 0] w ht) (broadcastInDim SW ![] hb (constant (F := Ideal) S0 .f32 0x00000000#32)))
        (broadcastInDim SW ![] hb (constant (F := Ideal) S0 .f32 0x3F800000#32))
        (broadcastInDim SW ![] hb (constant (F := Ideal) S0 .f32 0xBF800000#32))) hlt (ix2 k o)
      = sgn (w (ix2 o k)) := by
  show Scalar.select (FloatOps.cmpf .oge (transpose SW [1, 0] w ht (ix2 k o))
        (broadcastInDim SW ![] hb (constant (F := Ideal) S0 .f32 0x00000000#32) (ix2 k o)))
      (broadcastInDim SW ![] hb (constant (F := Ideal) S0 .f32 0x3F800000#32) (ix2 k o))
      (broadcastInDim SW ![] hb (constant (F := Ideal) S0 .f32 0xBF800000#32) (ix2 k o)) = _
  rw [scalar_at, scalar_at, scalar_at,
    transpose_apply [1, 0] w ht (ix2 k o) (ix2 o k) (fun b => match b with
      | ⟨0, _⟩ => rfl
      | ⟨1, _⟩ => rfl)]
  rfl

/-- The product on rows of the laid-out arguments, read back as [8, 2048, 4096], is the layer. -/
theorem layer_of_rows (x : FVec Ideal SX .f32) (w : FVec Ideal SW .f32) (b : FVec Ideal SB .f32)
    (h1 : SX.ShapeCasts SR) (h2 : SR.ShapeCasts SX) (h3 : SB.ShapeCasts SB1)
    (Wt : FVec Ideal SW .bf16) (hW : ∀ k o : Fin 4096, Wt (ix2 k o) = sgn (w (ix2 o k))) :
    shapeCast SX (rowsProduct (shapeCast SR x h1) Wt (shapeCast SB1 b h3)) h2 = layer x w b := by
  funext i
  obtain ⟨p, s, o, rfl⟩ : ∃ (p : Fin 8) (s : Fin 2048) (o : Fin 4096), i = ix3 p s o := ⟨i 0, i 1, i 2, eq_ix3 i⟩
  rw [unrows_at, rowsProduct_ix2, layer_ix3]
  unfold rowsProductAt layerAt
  rw [biasRow_at]
  congr 1
  refine Finset.sum_congr rfl fun k _ => ?_
  rw [rows_at, hW]

end Cert.BinLinear

end
-- ==== Proof.Tiles.lean ====
/-
  From the blocks to the array.

  The launch runs over a grid of 4 × 64 points.  Point t = 64 · j + i (j a tile of 1024 output columns, i a tile of 256
  rows) reads rows tile i of the row array, column tile j of the binarized weights and column tile j of the bias row,
  and writes tile (i, j) of the output.  What it writes is tile (i, j) of the product on rows: entry (p, q) of the
  block is the product's entry (256 · i + p, 1024 · j + q), because the rows tile starts at row 256 · i and spans the
  whole contracted axis, and the weight and bias tiles start at column 1024 · j.  The 64 × 4 tiles cover the
  16384 × 4096 array, so after the launch the array is the product on rows.
-/
import proofs.«150569_j81063212745415_2_alg».proof.Proof.Gen.KernelIdeal.Frame
import proofs.«150569_j81063212745415_2_alg».proof.Proof.BlockProduct
import proofs.«150569_j81063212745415_2_alg».proof.Proof.Rows
import Idealize.ShloMosaic.Lib.Pipeline.Value

set_option maxRecDepth 16384

noncomputable section

namespace Cert.BinLinear.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The tiles each point works on: the output's tile is (t mod 64, t div 64); the rows tile is the output's row
    tile and starts at column 0; the weight and bias tiles start at row 0 and are the output's column tile. -/
theorem tile_facts : ∀ t : Fin cfg0.N,
    win0_3.index t (0 : Fin 2) = t.val % 64 ∧ win0_3.index t (1 : Fin 2) = t.val / 64
    ∧ win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2) :=
  (by decide +kernel : ∀ t : Fin grid0.N, _)

/-- WHAT POINT t WRITES BACK is tile t of the product on rows of the three arrays as the region finds them. -/
theorem flushed_eq (c : Dev nD) (t : Fin cfg0.N) :
    (dats m 0 c).flushed 3 t
      = ((cfg0.win 3).blk t).view.read (Elt Ideal) (rowsProduct (V m c main_v0) (V m c main_v5) (V m c main_v6)) := by
  show (cfg0.win 3).cut (grid0.coords t) ((dats m 0 c).after 3 t) = _
  rw [after0_3]
  unfold out0_3
  rw [View.canon_unit_zero zero_offsets]
  simp only [View.ld_unit_zero (S := S256x4096) zero_offsets, View.ld_unit_zero (S := S4096x1024) zero_offsets,
    View.ld_unit_zero (S := S1x1024) zero_offsets]
  obtain ⟨e30, e31, e00, e01, e10, e11, e20, e21⟩ := tile_facts t
  have ht : t.val < 256 := t.isLt
  funext j
  obtain ⟨p, q, rfl⟩ : ∃ (p : Fin 256) (q : Fin 1024), j = ix2 p q := ⟨j 0, j 1, eq_ix2 j⟩
  have hp : p.val < 256 := p.isLt
  have hq : q.val < 1024 := q.isLt
  -- the row and the column of the array that entry (p, q) of the tile is
  let r : Fin 16384 := ⟨win0_3.index t (0 : Fin 2) * 256 + p.val, by omega⟩
  let o : Fin 4096 := ⟨win0_3.index t (1 : Fin 2) * 1024 + q.val, by omega⟩
  have he : ((cfg0.win 3).blk t).view.emb (ix2 p q) = ix2 r o := by
    funext a; apply Fin.ext
    match a with
    | ⟨0, _⟩ => show win0_3.index t (0 : Fin 2) * 256 + 1 * p.val = win0_3.index t (0 : Fin 2) * 256 + p.val; omega
    | ⟨1, _⟩ => show win0_3.index t (1 : Fin 2) * 1024 + 1 * q.val = win0_3.index t (1 : Fin 2) * 1024 + q.val; omega
  have h0 : ∀ k : Fin 4096, ((cfg0.win 0).blk t).view.emb (ix2 p k) = ix2 r k := fun k => by
    funext a; apply Fin.ext
    match a with
    | ⟨0, _⟩ => show win0_0.index t (0 : Fin 2) * 256 + 1 * p.val = win0_3.index t (0 : Fin 2) * 256 + p.val; omega
    | ⟨1, _⟩ => show win0_0.index t (1 : Fin 2) * 4096 + 1 * k.val = k.val; omega
  have h1 : ∀ k : Fin 4096, ((cfg0.win 1).blk t).view.emb (ix2 k q) = ix2 k o := fun k => by
    funext a; apply Fin.ext
    match a with
    | ⟨0, _⟩ => show win0_1.index t (0 : Fin 2) * 4096 + 1 * k.val = k.val; omega
    | ⟨1, _⟩ => show win0_1.index t (1 : Fin 2) * 1024 + 1 * q.val = win0_3.index t (1 : Fin 2) * 1024 + q.val; omega
  have h2 : ((cfg0.win 2).blk t).view.emb (ix2 (0 : Fin 1) q) = ix2 (0 : Fin 1) o := by
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega
  -- each entry of an input block is the entry of its array at the matching row and column
  have i0 : ∀ k : Fin 4096, (iblk m c 0 t : S256x4096.Idx → EReal) (ix2 p k)
      = (V m c main_v0 : S16384x4096.Idx → EReal) (ix2 r k) :=
    fun k => congrArg (V m c main_v0 : S16384x4096.Idx → EReal) (h0 k)
  have i1 : ∀ k : Fin 4096, (iblk m c 1 t : S4096x1024.Idx → EReal) (ix2 k q)
      = (V m c main_v5 : S4096x4096.Idx → EReal) (ix2 k o) :=
    fun k => congrArg (V m c main_v5 : S4096x4096.Idx → EReal) (h1 k)
  have i2 : (iblk m c 2 t : S1x1024.Idx → EReal) (ix2 (0 : Fin 1) q)
      = (V m c main_v6 : S1x4096.Idx → EReal) (ix2 (0 : Fin 1) o) :=
    congrArg (V m c main_v6 : S1x4096.Idx → EReal) h2
  show k0_pay1 (F := Ideal) (iblk m c 0 t) (iblk m c 1 t) (iblk m c 2 t) (ix2 p q)
    = rowsProduct (V m c main_v0) (V m c main_v5) (V m c main_v6) (((cfg0.win 3).blk t).view.emb (ix2 p q))
  refine (block_at _ _ _ p q).trans ?_
  refine Eq.trans ?_ (congrArg (rowsProduct (V m c main_v0) (V m c main_v5) (V m c main_v6)) he).symm
  rw [rowsProduct_ix2]
  unfold rowsProductAt
  exact congrArg₂ (· + ·) (Finset.sum_congr rfl fun k _ => congrArg₂ (· * ·) (i0 k) (i1 k)) i2

/-- An index of the array is in point t's tile iff each coordinate is in the tile's range on its axis. -/
theorem mem_tile (t : Fin cfg0.N) (i : S16384x4096.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v7).slice (win0_3.rect t)).set ↔ _
  rw [View.set_slice_whole, Rect.mem_set_unit]
  exact Iff.rfl

/-- THE TILES COVER THE ARRAY: entry (r, o) is in the tile of point 64 · (o div 1024) + r div 256. -/
theorem tiles_cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  let t : Fin cfg0.N := ⟨(i 1).val / 1024 * 64 + (i 0).val / 256, by show _ < 256; omega⟩
  obtain ⟨e30, e31, -⟩ := tile_facts t
  have tv : t.val = (i 1).val / 1024 * 64 + (i 0).val / 256 := rfl
  refine ⟨t, flush0_3 t, ?_⟩
  rw [mem_tile]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 1024 ≤ (i 1).val ∧ (i 1).val < win0_3.index t (1 : Fin 2) * 1024 + 1024
    omega

/-- THE ARRAY after the launch is the product on rows of the three arrays as the region finds them. -/
theorem array_after (c : Dev nD) :
    (dats m 0 c).arrAt 3 cfg0.N = rowsProduct (V m c main_v0) (V m c main_v5) (V m c main_v6) :=
  (dats m 0 c).arrAt_eq_of_cover 3 _ (fun t _ => flushed_eq m c t) tiles_cover

end Cert.BinLinear.Kernel

end
-- ==== Proof.LibTypedRef.lean ====
/-
  A typed reference's two transports cancel.

  A host operation stated over typed references moves each operand from its buffer's contents to contents at the
  value's type, and the result back.  The two moves are transports along one equation of types, in opposite
  directions, so one after the other is the identity; this holds for any typed reference, with nothing about which
  buffer it is.
-/
import Idealize.ShloMosaic.Lib.StableHlo

namespace Cert.LibTypedRef

open Idealize.ShloMosaic Idealize.ShloMosaic.StableHlo

variable {sig : RefSig} {Val : EltTy → Type} {T : BufTy}

/-- Contents moved to the buffer's type and back are the contents. -/
theorem ofBuf_toBuf (x : TRef sig T) (v : T.Contents Val) : x.ofBuf (x.toBuf v) = v := by
  obtain ⟨r, h, h1, h2⟩ := x
  subst h
  rfl

/-- Contents of the buffer moved to the value's type and back are the contents. -/
theorem toBuf_ofBuf (x : TRef sig T) (v : x.ref.ty.Contents Val) : x.toBuf (x.ofBuf v) = v := by
  obtain ⟨r, h, h1, h2⟩ := x
  subst h
  rfl

end Cert.LibTypedRef
-- ==== Proof.LaidOut.lean ====
/-
  The three arrays the launch reads, as the region finds them.

  Before the launch the host lays the arguments out for it: the activations [8, 2048, 4096] as 16384 rows of 4096,
  the weights transposed to [in, out] and binarized (+1 where the weight is ≥ 0, −1 elsewhere, then a change of float
  format), and the bias as one row.  Each is the composed term of the operations that wrote it.
-/
import proofs.«150569_j81063212745415_2_alg».proof.Proof.Gen.KernelIdeal.Frame
import proofs.«150569_j81063212745415_2_alg».proof.Proof.LibTypedRef
import Idealize.ShloMosaic.Lib.StableHlo.Run
import Idealize.ShloMosaic.PureOps.Ideal

noncomputable section

namespace Cert.BinLinear.Kernel

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The weights as the launch reads them, of the weight argument `w`: transposed, compared with zero, the two
    constants selected, the float format changed. -/
def binarizedT (w : FVec Ideal S4096x4096 .f32) : FVec Ideal S4096x4096 .bf16 :=
  truncf .bf16 (select
      (cmpf .oge (transpose S4096x4096 [1, 0] w transposes_S4096x4096_S4096x4096_1_0)
        (broadcastInDim S4096x4096 ![] bcast_S_S4096x4096 (constant (F := Ideal) S_ .f32 0x00000000#32)))
      (broadcastInDim S4096x4096 ![] bcast_S_S4096x4096 (constant (F := Ideal) S_ .f32 0x3F800000#32))
      (broadcastInDim S4096x4096 ![] bcast_S_S4096x4096 (constant (F := Ideal) S_ .f32 0xBF800000#32)))
    bitsLt_bf16_f32

/-- The rows: the activations argument read as 16384 rows. -/
theorem rows_eq (c : Dev nD) :
    (V (F := Ideal) m c main_v0 : S16384x4096.Idx → EReal)
      = shapeCast S16384x4096 (m ((c.tc : Thread nD τ).loc main_arg0)) shapeCasts_S8x2048x4096_S16384x4096 := by
  dsimp only [V, V0]
  simp only [hostOps0, hostOps0_1, hostOps0_2, List.flatten_cons, List.flatten_nil, List.append_nil, List.cons_append,
    List.nil_append]
  after_results
  rfl

/-- The weights: the weight argument transposed and binarized. -/
theorem weights_eq (c : Dev nD) :
    (V (F := Ideal) m c main_v5 : S4096x4096.Idx → EReal)
      = binarizedT (m ((c.tc : Thread nD τ).loc main_arg1)) := by
  dsimp only [V, V0]
  simp only [hostOps0, hostOps0_1, hostOps0_2, List.flatten_cons, List.flatten_nil, List.append_nil, List.cons_append,
    List.nil_append]
  after_results
  simp only [Cert.LibTypedRef.ofBuf_toBuf]
  rfl

/-- The bias: the bias argument read as one row. -/
theorem biasRow_eq (c : Dev nD) :
    (V (F := Ideal) m c main_v6 : S1x4096.Idx → EReal)
      = shapeCast S1x4096 (m ((c.tc : Thread nD τ).loc main_arg2)) shapeCasts_S4096_S1x4096 := by
  dsimp only [V, V0]
  simp only [hostOps0, hostOps0_1, hostOps0_2, List.flatten_cons, List.flatten_nil, List.append_nil, List.cons_append,
    List.nil_append]
  after_results
  rfl

end Cert.BinLinear.Kernel

end
-- ==== Proof.KernelResult.lean ====
/-
  What the kernel program returns.

  After the launch the host reads the 16384 × 4096 output array back as [8, 2048, 4096].  The array is the product on
  rows of the laid-out arguments, so the result is the layer of the three arguments.  The arguments end as they began.
-/
import proofs.«150569_j81063212745415_2_alg».proof.Proof.Tiles
import proofs.«150569_j81063212745415_2_alg».proof.Proof.LaidOut
import Idealize.ShloMosaic.Lib.StableHlo.Run

noncomputable section

namespace Cert.BinLinear.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The result buffer after the reshape that follows the launch is the layer of the three arguments. -/
theorem result_after (c : Dev nD) :
    (Pipeline.afterTail₀ cfgs (dats m) 0 (V0 m) [hostOps1] c main_v8 : S8x2048x4096.Idx → EReal)
      = layer (m ((c.tc : Thread nD τ).loc main_arg0)) (m ((c.tc : Thread nD τ).loc main_arg1))
          (m ((c.tc : Thread nD τ).loc main_arg2)) := by
  unfold Pipeline.afterTail₀
  show StableHlo.after hostOps1 _ (Proc.devRef .tc main_v8) = _
  after_results
  rw [Pipeline.withArrays_arr spec0 launch0.win.arr_inj c _ _ 3]
  show shapeCast S8x2048x4096 ((dats m 0 c).arrAt 3 cfg0.N) shapeCasts_S16384x4096_S8x2048x4096 = _
  rw [array_after, rows_eq, weights_eq, biasRow_eq]
  unfold binarizedT
  exact layer_of_rows _ _ _ _ _ _ _ (fun k o => binarized_at _ _ _ _ k o)

/-- Every weakly fair execution of the kernel program terminates with the result at the layer of the arguments and
    the arguments unchanged. -/
theorem run : θ_run defs (onTc (τ := τ) (main (F := Ideal))) ⟨m, fun _ => 0, ρ⟩ fun r => ∀ c : Dev nD,
      r.2.mem ((c.tc : Thread nD τ).loc main_v8)
        = layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (result_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.BinLinear.Kernel

end
-- ==== Proof.RefLayer.lean ====
/-
  The reference computes the layer.

  Read one operation at a time, the reference's result at (b, s, o) is the sum over k of x[b, s, k] times the
  straight-through weight  w[o, k] + (sgn w[o, k] − w[o, k]), plus bias[o] broadcast over b and s.  At real weights the
  straight-through weight is sgn w[o, k], so the result is the layer's.
-/
import proofs.«150569_j81063212745415_2_alg».proof.Proof.Gen.ReferenceIdeal.Read
import proofs.«150569_j81063212745415_2_alg».proof.Proof.Spec

noncomputable section

namespace Cert.BinLinear.Reference

open Idealize.ShloMosaic Idealize.ShloMosaic.ValueIdx Cert.BinLinear
open Cert.ReferenceIdeal Cert.ReferenceIdeal.Read

/-- The weight the reference contracts with, at entry j, is the binarized weight there: the select of the two
    broadcast constants under the comparison with the broadcast zero is sgn, and the straight-through sum cancels. -/
theorem weight_stage (w : FVec Ideal S4096x4096 .f32) (hw : ∀ j, ∃ r : ℝ, w j = (r : EReal)) (j : S4096x4096.Idx) :
    val_main_v5 (F := Ideal) w j = sgn (w j) := by
  rw [val_main_v5_apply, val_main_v4_apply, val_main_v3_apply, val_main_v2_apply, val_main_v1_apply,
    val_main_v0_apply, val_main_cst_apply, val_main_call0_v0_apply, val_main_cst_0_apply,
    val_main_call0_v1_apply, val_main_cst_1_apply]
  exact straight_through (w j) (hw j)

/-- The reference's result at the entry (p, s, o) is the layer's there, when every weight is a real number. -/
theorem result_at (x : FVec Ideal S8x2048x4096 .f32) (w : FVec Ideal S4096x4096 .f32) (b : FVec Ideal S4096 .f32)
    (hw : ∀ j, ∃ r : ℝ, w j = (r : EReal)) (p : Fin 8) (s : Fin 2048) (o : Fin 4096) :
    val_main_v9 (F := Ideal) x w b (ix3 p s o) = layerAt x w b p s o := by
  have el : ∀ k : Fin 4096, lidx_main_v6 (ix3 p s o) k = ix3 p s k := fun k => funext fun a => Fin.ext (by
    match a with
    | ⟨0, _⟩ => rfl
    | ⟨1, _⟩ => rfl
    | ⟨2, _⟩ => rfl)
  have er : ∀ k : Fin 4096, ridx_main_v6 (ix3 p s o) k = ix2 o k := fun k => funext fun a => Fin.ext (by
    match a with
    | ⟨0, _⟩ => rfl
    | ⟨1, _⟩ => rfl)
  have eb : idx_main_v7 (idx_main_v8 (ix3 p s o)) = ix1 o := funext fun a => Fin.ext (by
    match a with
    | ⟨0, _⟩ => rfl)
  rw [val_main_v9_apply, val_main_v6_apply, val_main_v8_apply, val_main_v7_apply, eb]
  show (∑ k : Fin 4096, x (lidx_main_v6 (ix3 p s o) k) * val_main_v5 (F := Ideal) w (ridx_main_v6 (ix3 p s o) k)) + b (ix1 o) = _
  unfold layerAt
  congr 1
  refine Finset.sum_congr rfl fun k _ => ?_
  rw [el, er, weight_stage w hw]

/-- The reference's result is the layer of its three arguments, when every weight is a real number. -/
theorem result_eq (x : FVec Ideal S8x2048x4096 .f32) (w : FVec Ideal S4096x4096 .f32) (b : FVec Ideal S4096 .f32)
    (hw : ∀ j, ∃ r : ℝ, w j = (r : EReal)) :
    val_main_v9 (F := Ideal) x w b = layer x w b := by
  funext i
  obtain ⟨p, s, o, rfl⟩ : ∃ (p : Fin 8) (s : Fin 2048) (o : Fin 4096), i = ix3 p s o := ⟨i 0, i 1, i 2, eq_ix3 i⟩
  exact result_at x w b hw p s o

end Cert.BinLinear.Reference

end
-- ==== Proof.RealWeights.lean ====
/-
  Every weight is a real number.

  The precondition says that |x| < +∞ holds at every entry of each argument: it is the conjunction of three
  "all entries" reductions by `and`, and it equals 1.  So each reduction is 1, so each entry's comparison is 1; and an
  extended real whose absolute value max x (−x) is below +∞ is neither infinity, that is, a real number.  Only the
  weights' finiteness is used.
-/
import proofs.«150569_j81063212745415_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.BinLinear.Finite

open Cert.Pre_finite_inputs Cert.Pre_finite_inputs.Facts Idealize.ShloMosaic Idealize.ShloMosaic.ValueIdx

instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real with |x| < +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-- Under the precondition every entry of the weights is a real number. -/
theorem weights_real (x : FVec Ideal S8x2048x4096 .f32) (w : FVec Ideal S4096x4096 .f32) (b : FVec Ideal S4096 .f32)
    (h : fn (F := Ideal) x w b = fun _ => 1#1) (j : S4096x4096.Idx) : ∃ r : ℝ, w j = (r : EReal) := by
  have h0 := congrFun h ix0
  dsimp only [fn] at h0
  obtain ⟨h1, -⟩ := IntOp.andi_eq_one.1 h0
  obtain ⟨-, h2⟩ := IntOp.andi_eq_one.1 h1
  have h3 : cmpf .olt (Host.absf w)
      (broadcastInDim S4096x4096 ![] bcast_S_S4096x4096 (constant (F := Ideal) S_ .f32 0x7F800000#32)) j = 1#1 :=
    Host.reduce_andi_all _ _ _ _ _ h2 j
  rw [cmpf_apply, broadcastInDim_apply _ bcast_S_S4096x4096 _ j ix0 (fun a => a.elim0)] at h3
  exact real_of_abs_lt_inf (w j) h3

end Cert.BinLinear.Finite

end
-- ==== Proof.lean ====
/-
  A binarized linear layer, computed two ways, is one function on the extended reals.

  Both programs compute, for activations x [8, 2048, 4096], weights w [4096 out, 4096 in] and a bias b [4096],
      out[p, s, o] = Σ_k x[p, s, k] · sgn (w[o, k]) + b[o],      sgn w = +1 where w ≥ 0, −1 elsewhere.
  The kernel flattens x to 16384 rows, transposes and binarizes the weights once, and multiplies tile by tile over a
  4 × 64 grid, each point a full-depth 256 × 4096 by 4096 × 1024 product plus the bias row; its changes of float format
  are the identity on the extended reals, and the tiles cover the output.  The reference contracts x with the
  straight-through weight w + (sgn w − w), which is sgn w exactly when w is a real number — the one place the
  precondition is used — and adds the broadcast bias.
  The three frames are the generated ones (the reference's is its run with the result dropped); the idealization
  rewrote nothing, so it is preserved trivially.
-/
import proofs.«150569_j81063212745415_2_alg».proof.Defs
import proofs.«150569_j81063212745415_2_alg».proof.Proof.Gen.Kernel
import proofs.«150569_j81063212745415_2_alg».proof.Proof.Gen.Kernel.Skeleton
import proofs.«150569_j81063212745415_2_alg».proof.Proof.Gen.Kernel.Launch
import proofs.«150569_j81063212745415_2_alg».proof.Proof.Gen.Kernel.Points
import proofs.«150569_j81063212745415_2_alg».proof.Proof.Gen.Kernel.Frame
import proofs.«150569_j81063212745415_2_alg».proof.Proof.Gen.KernelIdeal
import proofs.«150569_j81063212745415_2_alg».proof.Proof.Gen.KernelIdeal.Skeleton
import proofs.«150569_j81063212745415_2_alg».proof.Proof.Gen.KernelIdeal.Launch
import proofs.«150569_j81063212745415_2_alg».proof.Proof.Gen.KernelIdeal.Points
import proofs.«150569_j81063212745415_2_alg».proof.Proof.Gen.KernelIdeal.Frame
import proofs.«150569_j81063212745415_2_alg».proof.Proof.Gen.ReferenceIdeal
import proofs.«150569_j81063212745415_2_alg».proof.Proof.Gen.Pre_finite_inputs
import proofs.«150569_j81063212745415_2_alg».proof.Proof.Gen.ReferenceIdeal.Run
import proofs.«150569_j81063212745415_2_alg».proof.Proof.Gen.ReferenceIdeal.Read
import proofs.«150569_j81063212745415_2_alg».proof.Proof.KernelResult
import proofs.«150569_j81063212745415_2_alg».proof.Proof.RefLayer
import proofs.«150569_j81063212745415_2_alg».proof.Proof.RealWeights
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer of the arguments: the kernel by its tiles, the reference by its operations read
    one at a time, its straight-through weight cancelled at the real weights the precondition gives. -/
theorem algebraic : Cert.algebraic_KernelIdeal_ReferenceIdeal := by
  intro m ρ m' ρ' hpre hagree
  refine ⟨fun c => Cert.BinLinear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.BinLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v9_eq]
  exact Cert.BinLinear.Reference.result_eq _ _ _ (fun j => Cert.BinLinear.Finite.weights_real _ _ _ (hpre c) j)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
